-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S64x128 .f32) (main_arg3 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S1x64 : Shape := ⟨2, ![1, 64]⟩
abbrev S8192x64 : Shape := ⟨2, ![8192, 64]⟩
abbrev S1024x4096 : Shape := ⟨2, ![1024, 4096]⟩
abbrev S1024x64 : Shape := ⟨2, ![1024, 64]⟩
abbrev S4096x64 : Shape := ⟨2, ![4096, 64]⟩

abbrev nBuf : Space → Nat
  | .hbm => 6
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S8192x64, .f32⟩
  | .local _ .vmem, ⟨0, _⟩ => ⟨S8192x128, .f32⟩
  | .local _ .vmem, ⟨1, _⟩ => ⟨S64x128, .f32⟩
  | .local _ .vmem, ⟨2, _⟩ => ⟨S1x64, .f32⟩
  | .local _ .vmem, ⟨3, _⟩ => ⟨S1024x4096, .f32⟩
  | .local _ .vmem, ⟨4, _⟩ => ⟨S1024x4096, .f32⟩
  | .local _ .vmem, ⟨5, _⟩ => ⟨S1024x64, .f32⟩
  | .local _ .vmem, ⟨6, _⟩ => ⟨S1024x64, .f32⟩
  | .local _ .vmem, ⟨7, _⟩ => ⟨S8192x64, .f32⟩
  | .local _ .vmem, ⟨8, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c4096_i32 : BitVec 32 := 4096#32
  let v6 : BitVec 32 := Scalar.muli arg1 c4096_i32
  let v7 : Index := Scalar.indexCast v6
  let c0_3 : Index := 0#32
  ![v7.toNat, 0]
def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1024x4096_S1024x4096_0_0 : ∀ a, (![0, 0] : Fin 2 → Nat) a + S1024x4096.size a ≤ S1024x4096.size a
  h_S1024x4096 : 0 < S1024x4096.numel
  h_S4096x64 : 0 < S4096x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  dot_S8192x128_S64x128_S8192x64_1_1_0_0_n_n_wf : DotDims.WF S8192x128 S64x128 S8192x64 [1] [1] [0] [0] [] []
  dot_S1024x4096_S4096x64_S1024x64_1_0_0_1_n_n_wf : DotDims.WF S1024x4096 S4096x64 S1024x64 [1] [0] [0] [1] [] []
  hrank0 : 0 < grid0.rank
  k0_off1_inb : ∀ i : grid0.Coords, ∀ a, (k0_off1 i) a + S4096x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S8192x8192.size a
  hwx0_3 : ∀ i : grid0.Coords, EltTy.bits .f32 = 32 ∨ (Rect.block (s := S8192x8192) S1024x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S8192x64, .f32⟩
  | .hbm, ⟨6, _⟩ => ⟨S1x64, .f32⟩
  | .hbm, ⟨7, _⟩ => ⟨S8192x64, .f32⟩
  | .hbm, ⟨8, _⟩ => ⟨S8192x64, .f32⟩
  | .hbm, ⟨9, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.HalfSums.lean ====
/-
  A sum over the 8192 contraction indices is the sum over the first 4096 of them plus the sum over the last
  4096. The adjacency product is accumulated in exactly these two halves: the first half of a row of `adj`
  against rows 0 … 4095 of the support matrix, then the second half against rows 4096 … 8191. Addition on the
  extended reals is commutative and associative, so the regrouping holds at the infinities too, and nothing
  here needs an entry to be finite.
-/
import Mathlib.Algebra.BigOperators.Fin

namespace Cert.GraphConv

open scoped BigOperators

/-- Index `j` of the first half, as an index of the whole contraction axis. -/
abbrev lo (j : Fin 4096) : Fin 8192 := ⟨j.val, by omega⟩

/-- Index `j` of the second half, as an index of the whole contraction axis: `4096 + j`. -/
abbrev hi (j : Fin 4096) : Fin 8192 := ⟨4096 + j.val, by omega⟩

/-- The whole sum is the sum of its two halves, in any commutative monoid. -/
theorem sum_halves {M : Type*} [AddCommMonoid M] (f : Fin 8192 → M) :
    ∑ j : Fin 8192, f j = (∑ j : Fin 4096, f (lo j)) + ∑ j : Fin 4096, f (hi j) := by
  have h := Fin.sum_univ_add (M := M) (a := 4096) (b := 4096) f
  exact h

end Cert.GraphConv
-- ==== Proof.Spec.lean ====
/-
  What both programs compute, as one function of the four argument arrays on the extended reals.

  The linear layer gives the support matrix, `support[j, c] = Σ d, x[j, d] · w[c, d] + b[c]` (row `j` of the features
  against row `c` of the weights, plus the bias of column `c`), and the result is the adjacency matrix times it,
  `out[r, c] = Σ j, adj[r, j] · support[j, c]` over all 8192 nodes `j`. Regrouped, the same sum is the contribution of the
  first 4096 nodes plus the contribution of the last 4096: the form in which the product is accumulated panel by panel.
-/
import Idealize.ShloMosaic.PureOps.Ideal
import Idealize.ShloMosaic.Lib.ValueIdx
import proofs.«139567_g55353538511427_cont_9to1c4b_890_16_alg».proof.Proof.HalfSums

noncomputable section

open scoped BigOperators

namespace Cert.GraphConv

open Idealize.ShloMosaic Idealize.ShloMosaic.ValueIdx

/-- Entry (j, c) of the support matrix: the features of node `j` against row `c` of the weights, plus the bias. -/
def support (x : (⟨2, ![8192, 128]⟩ : Shape).Idx → EReal) (w : (⟨2, ![64, 128]⟩ : Shape).Idx → EReal)
    (b : (⟨1, ![64]⟩ : Shape).Idx → EReal) (j : Fin 8192) (c : Fin 64) : EReal :=
  (∑ d : Fin 128, x (ix2 j d) * w (ix2 c d)) + b (ix1 c)

/-- Entry (r, c) of the result: row `r` of the adjacency matrix against column `c` of the support matrix. -/
def outAt (x : (⟨2, ![8192, 128]⟩ : Shape).Idx → EReal) (adj : (⟨2, ![8192, 8192]⟩ : Shape).Idx → EReal)
    (w : (⟨2, ![64, 128]⟩ : Shape).Idx → EReal) (b : (⟨1, ![64]⟩ : Shape).Idx → EReal) (r : Fin 8192) (c : Fin 64) : EReal :=
  ∑ j : Fin 8192, adj (ix2 r j) * support x w b j c

/-- The result array. -/
def out (x : (⟨2, ![8192, 128]⟩ : Shape).Idx → EReal) (adj : (⟨2, ![8192, 8192]⟩ : Shape).Idx → EReal)
    (w : (⟨2, ![64, 128]⟩ : Shape).Idx → EReal) (b : (⟨1, ![64]⟩ : Shape).Idx → EReal) :
    (⟨2, ![8192, 64]⟩ : Shape).Idx → EReal :=
  fun i => outAt x adj w b ⟨(i 0).val, idx2_lt0 i⟩ ⟨(i 1).val, idx2_lt1 i⟩

theorem out_ix2 (x : (⟨2, ![8192, 128]⟩ : Shape).Idx → EReal) (adj : (⟨2, ![8192, 8192]⟩ : Shape).Idx → EReal)
    (w : (⟨2, ![64, 128]⟩ : Shape).Idx → EReal) (b : (⟨1, ![64]⟩ : Shape).Idx → EReal) (r : Fin 8192) (c : Fin 64) :
    out x adj w b (ix2 r c) = outAt x adj w b r c := rfl

/-- The result entry as the first 4096 nodes' contribution plus the last 4096 nodes' contribution. -/
theorem outAt_halves (x : (⟨2, ![8192, 128]⟩ : Shape).Idx → EReal) (adj : (⟨2, ![8192, 8192]⟩ : Shape).Idx → EReal)
    (w : (⟨2, ![64, 128]⟩ : Shape).Idx → EReal) (b : (⟨1, ![64]⟩ : Shape).Idx → EReal) (r : Fin 8192) (c : Fin 64) :
    outAt x adj w b r c
      = (∑ j : Fin 4096, adj (ix2 r (lo j)) * support x w b (lo j) c)
        + ∑ j : Fin 4096, adj (ix2 r (hi j)) * support x w b (hi j) c :=
  sum_halves fun j => adj (ix2 r j) * support x w b j c

end Cert.GraphConv

end
-- ==== Proof.Reference.lean ====
/-
  The reference's result, read at an index, is the specification.

  The reference transposes the weights, multiplies the features by them (`Σ d, x[j, d] · wᵀ[d, c]`, and `wᵀ[d, c]` is
  `w[c, d]`), adds the bias broadcast over the rows, and multiplies the adjacency matrix by the result over all 8192
  nodes at once. Entry by entry that is `out` of Spec.lean, with nothing to regroup.
-/
import proofs.«139567_g55353538511427_cont_9to1c4b_890_16_alg».proof.Proof.Gen.ReferenceIdeal.Read
import proofs.«139567_g55353538511427_cont_9to1c4b_890_16_alg».proof.Proof.Spec

noncomputable section

open scoped BigOperators

namespace Cert.GraphConv.Reference

open Cert.ReferenceIdeal Cert.ReferenceIdeal.Read Idealize.ShloMosaic Idealize.ShloMosaic.ValueIdx Cert.GraphConv

/-- The reference's last stage is the specification's result array. -/
theorem stage_eq_out (x0 : (⟨S8192x128, .f32⟩ : BufTy).Contents (Elt Ideal)) (x1 : (⟨S8192x8192, .f32⟩ : BufTy).Contents (Elt Ideal))
    (x2 : (⟨S64x128, .f32⟩ : BufTy).Contents (Elt Ideal)) (x3 : (⟨S64, .f32⟩ : BufTy).Contents (Elt Ideal)) :
    val_main_v5 (F := Ideal) x0 x1 x2 x3 = out x0 x1 x2 x3 := by
  funext i
  obtain ⟨r, c, rfl⟩ : ∃ (r : Fin 8192) (c : Fin 64), i = ix2 r c := ⟨i 0, i 1, eq_ix2 i⟩
  rw [val_main_v5_apply, out_ix2]
  unfold outAt
  refine Finset.sum_congr rfl fun k _ => ?_
  have e1 : lidx_main_v5 (ix2 r c) k = ix2 r k :=
    funext fun a => Fin.ext (by match a with | ⟨0, _⟩ => rfl | ⟨1, _⟩ => rfl)
  have e2 : ridx_main_v5 (ix2 r c) k = ix2 k c :=
    funext fun a => Fin.ext (by match a with | ⟨0, _⟩ => rfl | ⟨1, _⟩ => rfl)
  rw [e1, e2, val_main_v4_apply, val_main_v1_apply, val_main_v3_apply, val_main_v2_apply, Ideal.addf_def]
  unfold support
  have e3 : idx_main_v2 (idx_main_v3 (ix2 k c)) = ix1 c :=
    funext fun a => Fin.ext (by match a with | ⟨0, _⟩ => rfl)
  rw [e3]
  refine congrArg (fun s => x1 (ix2 r k) * (s + x3 (ix1 c))) (Finset.sum_congr rfl fun d _ => ?_)
  have e4 : lidx_main_v1 (ix2 k c) d = ix2 k d :=
    funext fun a => Fin.ext (by match a with | ⟨0, _⟩ => rfl | ⟨1, _⟩ => rfl)
  have e5 : idx_main_v0 (ridx_main_v1 (ix2 k c) d) = ix2 c d :=
    funext fun a => Fin.ext (by match a with | ⟨0, _⟩ => rfl | ⟨1, _⟩ => rfl)
  rw [e4, val_main_v0_apply, e5]

end Cert.GraphConv.Reference

end
-- ==== Proof.Stored.lean ====
/-
  What each case of the body leaves behind, as the body's own arithmetic of the blocks it was handed.

  At the grid's first point the body fills the support buffer with the linear layer of the three resident blocks, and
  the accumulator with the first partial product, taken against the first slab of the support it has just stored. At
  every other point with the second coordinate 0 it leaves the support buffer alone and fills the accumulator with the
  partial product against the slab of the support buffer as the point before left it. At a point with the second
  coordinate 1 it leaves both alone and stores into the output block the accumulator plus the partial product
  against the other slab. A slab is 4096 consecutive rows of the support buffer, starting at row
  4096 times the second grid coordinate.
-/
import proofs.«139567_g55353538511427_cont_9to1c4b_890_16_alg».proof.Proof.Gen.KernelIdeal.Frame
import Idealize.ShloMosaic.Lib.Pipeline.Value

noncomputable section

namespace Cert.GraphConv.Stored

open Cert.KernelIdeal Cert.KernelIdeal.Gen Idealize.ShloMosaic Idealize.ShloMosaic.TcCoe Idealize.ShloMosaic.Tactic Idealize.SL.Sem

variable {F : FTy → Type} [FloatOps F]

/-- The two zero offsets of a whole-buffer access, as the constant function. -/
theorem zero_offsets : (![0, 0] : Fin 2 → Nat) = fun _ => 0 := funext fun a => by fin_cases a <;> rfl

/-- The 4096 rows of a support-sized array that the body loads at grid point `i`. -/
def slab (i : grid0.Coords) (s : Vec F S8192x64 .f32) : Vec F S4096x64 .f32 :=
  View.ld s (Rect.unit (s := S8192x64) (k0_off1 i) S4096x64.size (k0_off1_inb i))

/-- At the first point the support buffer ends holding the linear layer of the resident blocks. -/
theorem first_point_support (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1024x4096 .f32) (harg5 : arg5.IsWhole) (arg6 : Memref sig .tc .vmem S1024x64 .f32) (harg6 : arg6.IsWhole) (arg7 : Memref sig .tc .vmem S8192x64 .f32) (harg7 : arg7.IsWhole) (arg8 : Memref sig .tc .vmem S1024x64 .f32) (harg8 : arg8.IsWhole) (hc0 : cond0_0 i) (hc1 : cond0_1 i) (hc2 : ¬cond0_2 i)
    (x0 : Vec F S8192x128 .f32) (x1 : Vec F S64x128 .f32) (x2 : Vec F S1x64 .f32) (x3 : Vec F S1024x4096 .f32) :
    sout0_A_0 c i arg2 harg2 arg3 harg3 arg4 harg4 arg5 harg5 arg6 harg6 arg7 harg7 arg8 harg8 hc0 hc1 hc2 x0 x1 x2 x3 = k0_pay1 x0 x1 x2 := by
  unfold sout0_A_0
  rw [View.read_writes_junk_eq_canon]
  unfold kernelRun0_A
  dsimp only
  sl_unfold_run_names
  rw [View.canon_unit_zero zero_offsets]
  simp only [View.readAt_eq_ld, harg2.read_unread, harg3.read_unread, harg4.read_unread,
    View.ld_unit_zero (S := S8192x128) zero_offsets, View.ld_unit_zero (S := S64x128) zero_offsets,
    View.ld_unit_zero (S := S1x64) zero_offsets]

/-- At the first point the accumulator ends holding the partial product of the adjacency block with the first slab of
    the support just stored. -/
theorem first_point_acc (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1024x4096 .f32) (harg5 : arg5.IsWhole) (arg6 : Memref sig .tc .vmem S1024x64 .f32) (harg6 : arg6.IsWhole) (arg7 : Memref sig .tc .vmem S8192x64 .f32) (harg7 : arg7.IsWhole) (arg8 : Memref sig .tc .vmem S1024x64 .f32) (harg8 : arg8.IsWhole) (hc0 : cond0_0 i) (hc1 : cond0_1 i) (hc2 : ¬cond0_2 i)
    (x0 : Vec F S8192x128 .f32) (x1 : Vec F S64x128 .f32) (x2 : Vec F S1x64 .f32) (x3 : Vec F S1024x4096 .f32) :
    sout0_A_1 c i arg2 harg2 arg3 harg3 arg4 harg4 arg5 harg5 arg6 harg6 arg7 harg7 arg8 harg8 hc0 hc1 hc2 x0 x1 x2 x3 = k0_pay3 x3 (slab i (k0_pay1 x0 x1 x2)) := by
  unfold sout0_A_1
  rw [View.read_writes_junk_eq_canon]
  unfold kernelRun0_A
  dsimp only
  sl_unfold_run_names
  rw [View.canon_unit_zero zero_offsets, View.readAt_writes_junk_eq_canon, View.canon_unit_zero zero_offsets]
  simp only [View.readAt_eq_ld, harg2.read_unread, harg3.read_unread, harg4.read_unread, harg5.read_unread,
    View.ld_unit_zero (S := S8192x128) zero_offsets, View.ld_unit_zero (S := S64x128) zero_offsets,
    View.ld_unit_zero (S := S1x64) zero_offsets, View.ld_unit_zero (S := S1024x4096) zero_offsets]
  rfl

/-- At a later point with second coordinate 0 the accumulator ends holding the partial product of the adjacency block with
    the slab of the support buffer as it was found. -/
theorem later_point_acc (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1024x4096 .f32) (harg5 : arg5.IsWhole) (arg6 : Memref sig .tc .vmem S1024x64 .f32) (harg6 : arg6.IsWhole) (arg7 : Memref sig .tc .vmem S8192x64 .f32) (harg7 : arg7.IsWhole) (arg8 : Memref sig .tc .vmem S1024x64 .f32) (harg8 : arg8.IsWhole) (hc0 : ¬cond0_0 i) (hc1 : cond0_1 i) (hc2 : ¬cond0_2 i)
    (x0 : Vec F S8192x128 .f32) (x1 : Vec F S64x128 .f32) (x2 : Vec F S1x64 .f32) (x3 : Vec F S1024x4096 .f32)
    (xs0 : Vec F S8192x64 .f32) :
    sout0_C_1 c i arg2 harg2 arg3 harg3 arg4 harg4 arg5 harg5 arg6 harg6 arg7 harg7 arg8 harg8 hc0 hc1 hc2 x0 x1 x2 x3 xs0 = k0_pay3 x3 (slab i xs0) := by
  unfold sout0_C_1
  rw [View.read_writes_junk_eq_canon]
  unfold kernelRun0_C
  dsimp only
  rw [View.canon_unit_zero zero_offsets]
  simp only [View.readAt_eq_ld, harg5.read_unread, harg7.read_unread, View.ld_unit_zero (S := S1024x4096) zero_offsets]
  rfl

/-- At a point with second coordinate 1 the output block ends holding the accumulator as found plus the partial product
    of the adjacency block with the slab of the support buffer as found. -/
theorem last_point_out (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1024x4096 .f32) (harg5 : arg5.IsWhole) (arg6 : Memref sig .tc .vmem S1024x64 .f32) (harg6 : arg6.IsWhole) (arg7 : Memref sig .tc .vmem S8192x64 .f32) (harg7 : arg7.IsWhole) (arg8 : Memref sig .tc .vmem S1024x64 .f32) (harg8 : arg8.IsWhole) (hc0 : ¬cond0_0 i) (hc1 : ¬cond0_1 i) (hc2 : cond0_2 i)
    (x0 : Vec F S8192x128 .f32) (x1 : Vec F S64x128 .f32) (x2 : Vec F S1x64 .f32) (x3 : Vec F S1024x4096 .f32)
    (xs0 : Vec F S8192x64 .f32) (xs1 : Vec F S1024x64 .f32) :
    out0_B_4 c i arg2 harg2 arg3 harg3 arg4 harg4 arg5 harg5 arg6 harg6 arg7 harg7 arg8 harg8 hc0 hc1 hc2 x0 x1 x2 x3 xs0 xs1 = k0_pay4 x3 (slab i xs0) xs1 := by
  unfold out0_B_4
  rw [View.read_writes_junk_eq_canon]
  unfold kernelRun0_B
  dsimp only
  rw [View.canon_unit_zero zero_offsets]
  simp only [View.readAt_eq_ld, harg5.read_unread, harg7.read_unread, harg8.read_unread,
    View.ld_unit_zero (S := S1024x4096) zero_offsets, View.ld_unit_zero (S := S1024x64) zero_offsets]
  rfl

end Cert.GraphConv.Stored

end
-- ==== Proof.Blocks.lean ====
/-
  The blocks the pipeline hands the body, read off the arrays as the region finds them.

  The grid is 8 panels by 2 halves, swept in row-major order: point `t` is panel `t / 2`, half `t % 2`. The features, the
  weights and the bias row are resident (one block, the whole array, at every point). The adjacency block at point `t`
  is rows `1024 · (t / 2) …` and columns `4096 · (t % 2) …` of the adjacency matrix; the output block is rows
  `1024 · (t / 2) …` of the result. The slab the body loads from the support buffer at point `t` is its rows
  `4096 · (t % 2) …`. The bias row is the bias vector laid out as one row by the reshape that runs before the region.
-/
import proofs.«139567_g55353538511427_cont_9to1c4b_890_16_alg».proof.Proof.Stored
import Idealize.ShloMosaic.Lib.ValueIdx
import Idealize.ShloMosaic.Lib.ValueLayout
import Idealize.ShloMosaic.Lib.StableHlo.Run

noncomputable section

namespace Cert.GraphConv.Blocks

open Cert.KernelIdeal Cert.KernelIdeal.Gen Idealize.ShloMosaic Idealize.ShloMosaic.TcCoe Idealize.SL.Sem
open Idealize.ShloMosaic.ValueIdx Idealize.ShloMosaic.StableHlo Cert.GraphConv.Stored

variable {F : FTy → Type} [FloatOps F]
variable (m : (ℓ : Loc nD τ sig) → Buf (Elt F) ℓ)

/-- The printed index maps and the second grid coordinate, decided over the 16 points. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = t.val % 2
    ∧ win0_4.index t (0 : Fin 2) = t.val / 2 ∧ win0_4.index t (1 : Fin 2) = 0
    ∧ (grid0.coords t (1 : Fin 2)).val = t.val % 2 :=
  (by decide +kernel : ∀ t : Fin grid0.N, _)

/-- The features block is the whole features array. -/
theorem features_block (c : Dev nD) (t : Fin cfg0.N) : iblk m c 0 t = V m c main_arg0 := by
  obtain ⟨e0, e1, -⟩ := index_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 8192 + 1 * (y 0).val = (y 0).val; omega
  | ⟨1, _⟩ => show win0_0.index t (1 : Fin 2) * 128 + 1 * (y 1).val = (y 1).val; omega

/-- The weights block is the whole weights array. -/
theorem weights_block (c : Dev nD) (t : Fin cfg0.N) : iblk m c 1 t = V m c main_arg2 := by
  obtain ⟨-, -, e0, e1, -⟩ := index_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The bias block is the whole bias row. -/
theorem bias_block (c : Dev nD) (t : Fin cfg0.N) : iblk m c 2 t = V m c main_call0_v0 := by
  obtain ⟨-, -, -, -, e0, e1, -⟩ := index_facts t
  funext y
  show V m c main_call0_v0 (((cfg0.win 2).blk t).view.emb y) = V m c main_call0_v0 y
  refine congrArg (V m c main_call0_v0) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The adjacency block at point `t`, at (p, j), is the adjacency matrix at row `1024 · (t / 2) + p` and column
    `4096 · (t % 2) + j`. -/
theorem adjacency_block (c : Dev nD) (t : Fin cfg0.N) (p : Fin 1024) (j : Fin 4096) (r k : Fin 8192)
    (hr : r.val = 1024 * (t.val / 2) + p.val) (hk : k.val = 4096 * (t.val % 2) + j.val) :
    iblk m c 3 t (ix2 p j) = V m c main_arg1 (ix2 r k) := by
  obtain ⟨-, -, -, -, -, -, e0, e1, -⟩ := index_facts t
  show V m c main_arg1 (((cfg0.win 3).blk t).view.emb (ix2 p j)) = V m c main_arg1 (ix2 r k)
  refine congrArg (V m c main_arg1) (funext fun a => Fin.ext ?_)
  match a with
  | ⟨0, _⟩ => show win0_3.index t (0 : Fin 2) * 1024 + 1 * p.val = r.val; omega
  | ⟨1, _⟩ => show win0_3.index t (1 : Fin 2) * 4096 + 1 * j.val = k.val; omega

/-- An element (p, q) of the output block at point `t` sits in the result at row `1024 · (t / 2) + p`, column `q`. -/
theorem output_block_index (t : Fin cfg0.N) (p : Fin 1024) (q : Fin 64) (r : Fin 8192)
    (hr : r.val = 1024 * (t.val / 2) + p.val) :
    ((cfg0.win 4).blk t).view.emb (ix2 p q) = ix2 r q := by
  obtain ⟨-, -, -, -, -, -, -, -, e0, e1, -⟩ := index_facts t
  refine funext fun a => Fin.ext ?_
  match a with
  | ⟨0, _⟩ => show win0_4.index t (0 : Fin 2) * 1024 + 1 * p.val = r.val; omega
  | ⟨1, _⟩ => show win0_4.index t (1 : Fin 2) * 64 + 1 * q.val = q.val; omega

/-- The slab loaded at point `t`, at (j, c), is the support-sized array at row `4096 · (t % 2) + j`, column `c`. -/
theorem slab_apply (t : Fin cfg0.N) (s : Vec F S8192x64 .f32) (j : Fin 4096) (c : Fin 64) (k : Fin 8192)
    (hk : k.val = 4096 * (t.val % 2) + j.val) :
    slab (grid0.coords t) s (ix2 j c) = s (ix2 k c) := by
  obtain ⟨-, -, -, -, -, -, -, -, -, -, e⟩ := index_facts t
  unfold slab
  show s ((Rect.unit (s := S8192x64) (k0_off1 (grid0.coords t)) S4096x64.size (k0_off1_inb (grid0.coords t))).idx (ix2 j c)) = s (ix2 k c)
  refine congrArg s (funext fun a => Fin.ext ?_)
  match a with
  | ⟨0, _⟩ =>
    show k0_off1 (grid0.coords t) 0 + 1 * j.val = k.val
    rw [k0_off1_eq]
    show 4096 * (grid0.coords t (1 : Fin 2)).val + 1 * j.val = k.val
    omega
  | ⟨1, _⟩ =>
    show k0_off1 (grid0.coords t) 1 + 1 * c.val = c.val
    rw [k0_off1_eq]
    show 0 + 1 * c.val = c.val
    omega

/-- The bias row, as the region finds it, is the bias vector cast to one row. -/
theorem bias_row (c : Dev nD) :
    (V m c main_call0_v0 : S1x64.Idx → Elt F .f32)
      = shapeCast S1x64 (m ((c : Thread nD τ).loc main_arg3)) shapeCasts_S64_S1x64 := by
  dsimp only [Gen.V, Gen.hostOps0]
  after_results
  rfl

/-- Entry `q` of the bias row is entry `q` of the bias vector. -/
theorem bias_row_apply (c : Dev nD) (q : Fin 64) :
    V m c main_call0_v0 (ix2 (0 : Fin 1) q) = m ((c : Thread nD τ).loc main_arg3) (ix1 q) :=
  (congrFun (bias_row m c) (ix2 (0 : Fin 1) q)).trans (shapeCast_a_1a_apply _ shapeCasts_S64_S1x64 0 q)

end Cert.GraphConv.Blocks

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.Payloads.lean ====
/-
  The kernel body's arithmetic, read at an index on the extended reals.

  Four values are stored by the body. The support matrix: the features times the transposed weights into a zero
  accumulator, plus the one bias row broadcast over all 8192 rows — at (j, c), `Σ d, x[j, d] · w[c, d] + b[0, c]`.
  The partial product of a 1024 × 4096 panel of the adjacency matrix with a 4096 × 64 slab of the support matrix
  into a zero accumulator — at (p, c), `Σ j, a[p, j] · s[j, c]`; it is stored as it is after the first slab, and
  added to what the first slab left after the second.
-/
import proofs.«139567_g55353538511427_cont_9to1c4b_890_16_alg».proof.Proof.Gen.KernelIdeal.Skeleton
import proofs.«139567_g55353538511427_cont_9to1c4b_890_16_alg».proof.Proof.LibPlainDot
import proofs.«139567_g55353538511427_cont_9to1c4b_890_16_alg».proof.Proof.LibDotTransposed
import Idealize.ShloMosaic.Lib.ValueLayout
import Idealize.ShloMosaic.Lib.Pipeline.Value

noncomputable section

open scoped BigOperators

namespace Cert.GraphConv.Payload

open Cert.KernelIdeal Cert.KernelIdeal.Gen Idealize.ShloMosaic Idealize.ShloMosaic.ValueIdx

/-- In the features-by-weights product the left operand's row is the output's row. -/
theorem linear_lhs_row (j : S8192x64.Idx) (q : dot_S8192x128_S64x128_S8192x64_1_1_0_0_n_n.contr.Idx) :
    (dot_S8192x128_S64x128_S8192x64_1_1_0_0_n_n.lhsIdx j q 0).val = (j 0).val := by
  unfold DotDims.lhsIdx
  rw [dif_neg (show ¬(0 : Fin S8192x128.rank) ∈ dot_S8192x128_S64x128_S8192x64_1_1_0_0_n_n.lhsBatch by decide),
    dif_pos (show (0 : Fin S8192x128.rank) ∈ dot_S8192x128_S64x128_S8192x64_1_1_0_0_n_n.lhsNonContracting by decide)]
  rfl

/-- In the features-by-weights product the right operand's row is the output's column. -/
theorem linear_rhs_row (j : S8192x64.Idx) (q : dot_S8192x128_S64x128_S8192x64_1_1_0_0_n_n.contr.Idx) :
    (dot_S8192x128_S64x128_S8192x64_1_1_0_0_n_n.rhsIdx j q 0).val = (j 1).val := by
  unfold DotDims.rhsIdx
  rw [dif_neg (show ¬(0 : Fin S64x128.rank) ∈ dot_S8192x128_S64x128_S8192x64_1_1_0_0_n_n.rhsBatch by decide),
    dif_pos (show (0 : Fin S64x128.rank) ∈ dot_S8192x128_S64x128_S8192x64_1_1_0_0_n_n.rhsNonContracting by decide)]
  rfl

/-- In the panel-by-slab product the left operand's row is the output's row. -/
theorem panel_lhs_row (j : S1024x64.Idx) (q : dot_S1024x4096_S4096x64_S1024x64_1_0_0_1_n_n.contr.Idx) :
    (dot_S1024x4096_S4096x64_S1024x64_1_0_0_1_n_n.lhsIdx j q 0).val = (j 0).val := by
  unfold DotDims.lhsIdx
  rw [dif_neg (show ¬(0 : Fin S1024x4096.rank) ∈ dot_S1024x4096_S4096x64_S1024x64_1_0_0_1_n_n.lhsBatch by decide),
    dif_pos (show (0 : Fin S1024x4096.rank) ∈ dot_S1024x4096_S4096x64_S1024x64_1_0_0_1_n_n.lhsNonContracting by decide)]
  rfl

/-- In the panel-by-slab product the right operand's column is the output's column. -/
theorem panel_rhs_col (j : S1024x64.Idx) (q : dot_S1024x4096_S4096x64_S1024x64_1_0_0_1_n_n.contr.Idx) :
    (dot_S1024x4096_S4096x64_S1024x64_1_0_0_1_n_n.rhsIdx j q 1).val = (j 1).val := by
  unfold DotDims.rhsIdx
  rw [dif_neg (show ¬(1 : Fin S4096x64.rank) ∈ dot_S1024x4096_S4096x64_S1024x64_1_0_0_1_n_n.rhsBatch by decide),
    dif_pos (show (1 : Fin S4096x64.rank) ∈ dot_S1024x4096_S4096x64_S1024x64_1_0_0_1_n_n.rhsNonContracting by decide)]
  rfl

/-- The support matrix the body stores, at (j, c). -/
theorem support_apply (x : FVec Ideal S8192x128 .f32) (w : FVec Ideal S64x128 .f32) (b2 : FVec Ideal S1x64 .f32)
    (j : Fin 8192) (c : Fin 64) :
    k0_pay1 (F := Ideal) x w b2 (ix2 j c) = (∑ d : Fin 128, x (ix2 j d) * w (ix2 c d)) + b2 (ix2 (0 : Fin 1) c) := by
  unfold k0_pay1
  rw [shapeCast_self, addf_apply, shapeCast_self, broadcastTo_1b_ab_apply]
  exact congrArg (· + b2 (ix2 (0 : Fin 1) c))
    (Cert.LibDotTransposed.matmul_zero_apply dot_S8192x128_S64x128_S8192x64_1_1_0_0_n_n rfl rfl
      linear_lhs_row linear_rhs_row rfl rfl none x w j c)

/-- The panel-by-slab product, at (p, c). -/
theorem partial_apply (a : FVec Ideal S1024x4096 .f32) (s : FVec Ideal S4096x64 .f32) (p : Fin 1024) (c : Fin 64) :
    k0_pay2 (F := Ideal) a s (ix2 p c) = ∑ j : Fin 4096, a (ix2 p j) * s (ix2 j c) := by
  unfold k0_pay2
  exact Cert.LibPlainDot.matmul_zero_apply dot_S1024x4096_S4096x64_S1024x64_1_0_0_1_n_n rfl rfl
    panel_lhs_row panel_rhs_col rfl rfl none a s p c

/-- What is stored after the first slab: the partial product itself. -/
theorem first_apply (a : FVec Ideal S1024x4096 .f32) (s : FVec Ideal S4096x64 .f32) (p : Fin 1024) (c : Fin 64) :
    k0_pay3 (F := Ideal) a s (ix2 p c) = ∑ j : Fin 4096, a (ix2 p j) * s (ix2 j c) := by
  unfold k0_pay3
  rw [shapeCast_self]
  exact partial_apply a s p c

/-- What is stored after the second slab: what the first slab left, plus the partial product. -/
theorem second_apply (a : FVec Ideal S1024x4096 .f32) (s : FVec Ideal S4096x64 .f32) (acc : FVec Ideal S1024x64 .f32)
    (p : Fin 1024) (c : Fin 64) :
    k0_pay4 (F := Ideal) a s acc (ix2 p c) = acc (ix2 p c) + ∑ j : Fin 4096, a (ix2 p j) * s (ix2 j c) := by
  unfold k0_pay4
  rw [addf_apply]
  exact congrArg (acc (ix2 p c) + ·) (partial_apply a s p c)

end Cert.GraphConv.Payload

end
-- ==== Proof.PanelValue.lean ====
/-
  One output entry, from the body's arithmetic to the specification.

  Take a row `r` of the adjacency matrix cut into its first and second half, each the row `p` of a 1024 × 4096 panel,
  and the support matrix cut into its first and second 4096 rows. The first panel against the first slab, stored, then
  added to the second panel against the second slab, is `Σ j < 4096, adj[r, j] · support[j, q]` plus
  `Σ j < 4096, adj[r, 4096 + j] · support[4096 + j, q]`: the result entry (r, q), by the regrouping of Spec.lean.
-/
import proofs.«139567_g55353538511427_cont_9to1c4b_890_16_alg».proof.Proof.Payloads
import proofs.«139567_g55353538511427_cont_9to1c4b_890_16_alg».proof.Proof.Spec

noncomputable section

open scoped BigOperators

namespace Cert.GraphConv.Payload

open Cert.KernelIdeal Cert.KernelIdeal.Gen Idealize.ShloMosaic Idealize.ShloMosaic.ValueIdx Cert.GraphConv

/-- The stored support matrix is the specification's, once the bias row is the bias vector. -/
theorem support_value (x : FVec Ideal S8192x128 .f32) (w : FVec Ideal S64x128 .f32) (b2 : FVec Ideal S1x64 .f32)
    (b : FVec Ideal S64 .f32) (hb : ∀ c : Fin 64, b2 (ix2 (0 : Fin 1) c) = b (ix1 c)) (j : Fin 8192) (c : Fin 64) :
    k0_pay1 (F := Ideal) x w b2 (ix2 j c) = support x w b j c := by
  rw [support_apply, hb]
  rfl

/-- The stored output entry is the specification's. -/
theorem panel_value (x : FVec Ideal S8192x128 .f32) (adj : FVec Ideal S8192x8192 .f32) (w : FVec Ideal S64x128 .f32)
    (b : FVec Ideal S64 .f32) (S : FVec Ideal S8192x64 .f32) (s0 s1 : FVec Ideal S4096x64 .f32)
    (a0 a1 : FVec Ideal S1024x4096 .f32) (r : Fin 8192) (p : Fin 1024) (q : Fin 64)
    (hS : ∀ (j : Fin 8192) (c : Fin 64), S (ix2 j c) = support x w b j c)
    (hs0 : ∀ (j : Fin 4096) (c : Fin 64), s0 (ix2 j c) = S (ix2 (lo j) c))
    (hs1 : ∀ (j : Fin 4096) (c : Fin 64), s1 (ix2 j c) = S (ix2 (hi j) c))
    (ha0 : ∀ j : Fin 4096, a0 (ix2 p j) = adj (ix2 r (lo j)))
    (ha1 : ∀ j : Fin 4096, a1 (ix2 p j) = adj (ix2 r (hi j))) :
    k0_pay4 (F := Ideal) a1 s1 (k0_pay3 (F := Ideal) a0 s0) (ix2 p q) = outAt x adj w b r q := by
  rw [second_apply, first_apply, outAt_halves]
  refine congrArg₂ (· + ·) (Finset.sum_congr rfl fun j _ => ?_) (Finset.sum_congr rfl fun j _ => ?_)
  · rw [ha0, hs0, hS]
  · rw [ha1, hs1, hS]

end Cert.GraphConv.Payload

end
-- ==== Proof.Sweep.lean ====
/-
  The sweep over the 16 grid points, and the result array it leaves.

  After every point the support buffer holds the support matrix the first point stored: no later point writes it.
  After a point of the first half (an even point `t`) the accumulator holds the adjacency block of that point against the
  first 4096 rows of the support matrix. The point after it (odd, the same panel's second half) stores into the output
  block that accumulator plus its own adjacency block against the last 4096 rows; only these odd points write their
  block back, and their blocks are the eight panels of 1024 rows, which cover the result. Entry by entry what they write
  is the specification's result, so the array after the run is the specification's.
-/
import proofs.«139567_g55353538511427_cont_9to1c4b_890_16_alg».proof.Proof.Gen.KernelIdeal.Value
import proofs.«139567_g55353538511427_cont_9to1c4b_890_16_alg».proof.Proof.Blocks
import proofs.«139567_g55353538511427_cont_9to1c4b_890_16_alg».proof.Proof.PanelValue

noncomputable section

namespace Cert.GraphConv.Sweep

open Cert.KernelIdeal Cert.KernelIdeal.Gen Idealize.ShloMosaic Idealize.ShloMosaic.TcCoe Idealize.SL.Sem
open Idealize.ShloMosaic.Pipeline (Dat)
open Idealize.ShloMosaic.ValueIdx Cert.GraphConv Cert.GraphConv.Stored Cert.GraphConv.Blocks Cert.GraphConv.Payload

variable (m : (ℓ : Loc nD τ sig) → Buf (Elt Ideal) ℓ) (ρ : Dev nD → PrngReg)

/-- The support matrix as the first point stores it: the linear layer of the arrays as the region finds them. -/
def supportBuf (c : Dev nD) : Vec Ideal S8192x64 .f32 :=
  k0_pay1 (F := Ideal) (V m c main_arg0) (V m c main_arg2) (V m c main_call0_v0)

/-- The result the sweep is shown to leave: the specification of the arrays as the region finds them. -/
def result (c : Dev nD) : S8192x64.Idx → EReal :=
  out (V m c main_arg0) (V m c main_arg1) (V m c main_arg2) (m ((c : Thread nD τ).loc main_arg3))

/-- After every point the support buffer holds the support matrix. -/
theorem support_after (c : Dev nD) : ∀ (n : ℕ) (hn : n < cfg0.N), (outsAt0 m c n hn).2.1 = supportBuf m c
  | 0, hn => by
    have h2 : ¬ (0 : ℕ) % 2 = 1 := by decide
    refine (congrArg (fun z => z.2.1) (outsAt0_A m c ⟨0, hn⟩ rfl rfl h2)).trans ?_
    dsimp only
    refine (first_point_support c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) _ _ _ (iblk m c 0 ⟨0, hn⟩) (iblk m c 1 ⟨0, hn⟩) (iblk m c 2 ⟨0, hn⟩) (iblk m c 3 ⟨0, hn⟩)).trans ?_
    unfold supportBuf
    rw [features_block, weights_block, bias_block]
  | n + 1, hn => by
    have hN : n + 1 < 16 := lt_of_lt_of_eq hn (show cfg0.N = 16 from N_0)
    have ih := support_after c n (Nat.lt_of_succ_lt hn)
    by_cases h1 : (n + 1) % 2 = 0
    · have h0 : ¬ (n + 1) % 16 = 0 := by omega
      have h2 : ¬ (n + 1) % 2 = 1 := by omega
      refine (congrArg (fun z => z.2.1) (outsAt0_C m c ⟨n + 1, hn⟩ h0 h1 h2)).trans ?_
      exact ih
    · have h0 : ¬ (n + 1) % 16 = 0 := by omega
      have h2 : (n + 1) % 2 = 1 := by omega
      refine (congrArg (fun z => z.2.1) (outsAt0_B m c ⟨n + 1, hn⟩ h0 h1 h2)).trans ?_
      exact ih

/-- After a point of the first half the accumulator holds that point's adjacency block against its slab of the support
    matrix. -/
theorem acc_after_even (c : Dev nD) (n : ℕ) (hn : n < cfg0.N) (he : n % 2 = 0) :
    (outsAt0 m c n hn).2.2
      = k0_pay3 (F := Ideal) (iblk m c 3 ⟨n, hn⟩) (slab (grid0.coords ⟨n, hn⟩) (supportBuf m c)) := by
  have hN : n < 16 := lt_of_lt_of_eq hn (show cfg0.N = 16 from N_0)
  have h2 : ¬ n % 2 = 1 := by omega
  by_cases h0 : n % 16 = 0
  · refine (congrArg (fun z => z.2.2) (outsAt0_A m c ⟨n, hn⟩ h0 he h2)).trans ?_
    dsimp only
    refine (first_point_acc c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) _ _ _ (iblk m c 0 ⟨n, hn⟩) (iblk m c 1 ⟨n, hn⟩) (iblk m c 2 ⟨n, hn⟩) (iblk m c 3 ⟨n, hn⟩)).trans ?_
    unfold supportBuf
    rw [features_block, weights_block, bias_block]
  · have hp : n - 1 < cfg0.N := Nat.lt_of_le_of_lt (Nat.sub_le _ _) hn
    refine (congrArg (fun z => z.2.2) (outsAt0_C m c ⟨n, hn⟩ h0 he h2)).trans ?_
    dsimp only
    refine (later_point_acc c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) _ _ _ (iblk m c 0 ⟨n, hn⟩) (iblk m c 1 ⟨n, hn⟩) (iblk m c 2 ⟨n, hn⟩) (iblk m c 3 ⟨n, hn⟩) (outsAt0 m c (n - 1) hp).2.1).trans ?_
    rw [support_after m c (n - 1) hp]

/-- An index of the result is in point `t`'s output block iff each coordinate is in the block's range on its axis. -/
theorem mem_output_block (t : Fin cfg0.N) (i : S8192x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v0).slice (win0_4.rect t)).set ↔ _
  rw [View.set_slice_whole, Rect.mem_set_unit]
  exact Iff.rfl

/-- Every index of the result is in the output block of a point that writes its block back: row `r` is in the block of
    the second-half point of panel `r / 1024`. -/
theorem covered (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have hlt : 2 * ((i 0).val / 1024) + 1 < cfg0.N := by
    rw [show cfg0.N = 16 from N_0]; omega
  refine ⟨⟨2 * ((i 0).val / 1024) + 1, hlt⟩, (flush0_4 _).mpr (by show (2 * ((i 0).val / 1024) + 1) % 2 = 1; omega), ?_⟩
  rw [mem_output_block]
  obtain ⟨-, -, -, -, -, -, -, -, e0, e1, -⟩ := index_facts ⟨2 * ((i 0).val / 1024) + 1, hlt⟩
  have e0' : win0_4.index ⟨2 * ((i 0).val / 1024) + 1, hlt⟩ (0 : Fin 2) = (2 * ((i 0).val / 1024) + 1) / 2 := e0
  intro a
  match a with
  | ⟨0, _⟩ =>
    show win0_4.index ⟨2 * ((i 0).val / 1024) + 1, hlt⟩ (0 : Fin 2) * 1024 ≤ (i 0).val
      ∧ (i 0).val < win0_4.index ⟨2 * ((i 0).val / 1024) + 1, hlt⟩ (0 : Fin 2) * 1024 + 1024
    omega
  | ⟨1, _⟩ =>
    show win0_4.index ⟨2 * ((i 0).val / 1024) + 1, hlt⟩ (1 : Fin 2) * 64 ≤ (i 1).val
      ∧ (i 1).val < win0_4.index ⟨2 * ((i 0).val / 1024) + 1, hlt⟩ (1 : Fin 2) * 64 + 64
    omega

/-- What a second-half point writes back is its block of the result. -/
theorem flushed_odd (c : Dev nD) (t : Fin cfg0.N) (ho : t.val % 2 = 1) :
    (dats m 0 c).flushed 4 t = ((cfg0.win 4).blk t).view.read (Elt Ideal) (result m c) := by
  have hN : t.val < 16 := lt_of_lt_of_eq t.isLt (show cfg0.N = 16 from N_0)
  have hp : t.val - 1 < cfg0.N := Nat.lt_of_le_of_lt (Nat.sub_le _ _) t.isLt
  have h0 : ¬ t.val % 16 = 0 := by omega
  have h1 : ¬ t.val % 2 = 0 := by omega
  have he : (t.val - 1) % 2 = 0 := by omega
  have hval := last_point_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr ho) (iblk m c 0 t) (iblk m c 1 t) (iblk m c 2 t) (iblk m c 3 t) (outsAt0 m c (t.val - 1) hp).2.1 (outsAt0 m c (t.val - 1) hp).2.2
  rw [Cert.KernelIdeal.Value.flushed4_B m c t h0 h1 ho, hval, support_after m c (t.val - 1) hp, acc_after_even m c (t.val - 1) hp he]
  funext y
  obtain ⟨p, q, rfl⟩ : ∃ (p : Fin 1024) (q : Fin 64), y = ix2 p q := ⟨y 0, y 1, eq_ix2 y⟩
  have hr : 1024 * (t.val / 2) + p.val < 8192 := by have := p.isLt; omega
  show k0_pay4 (F := Ideal) (iblk m c 3 t) (slab (grid0.coords t) (supportBuf m c))
      (k0_pay3 (F := Ideal) (iblk m c 3 ⟨t.val - 1, hp⟩) (slab (grid0.coords ⟨t.val - 1, hp⟩) (supportBuf m c))) (ix2 p q)
    = result m c (((cfg0.win 4).blk t).view.emb (ix2 p q))
  rw [output_block_index t p q ⟨1024 * (t.val / 2) + p.val, hr⟩ rfl]
  refine (panel_value (V m c main_arg0) (V m c main_arg1) (V m c main_arg2) (m ((c : Thread nD τ).loc main_arg3))
    (supportBuf m c) (slab (grid0.coords ⟨t.val - 1, hp⟩) (supportBuf m c)) (slab (grid0.coords t) (supportBuf m c))
    (iblk m c 3 ⟨t.val - 1, hp⟩) (iblk m c 3 t) ⟨1024 * (t.val / 2) + p.val, hr⟩ p q ?_ ?_ ?_ ?_ ?_).trans (out_ix2 _ _ _ _ _ _).symm
  · intro j k
    exact support_value _ _ _ _ (bias_row_apply m c) j k
  · intro j k
    exact slab_apply ⟨t.val - 1, hp⟩ (supportBuf m c) j k (lo j) (by show j.val = 4096 * ((t.val - 1) % 2) + j.val; omega)
  · intro j k
    exact slab_apply t (supportBuf m c) j k (hi j) (by show 4096 + j.val = 4096 * (t.val % 2) + j.val; omega)
  · intro j
    exact adjacency_block m c ⟨t.val - 1, hp⟩ p j _ (lo j) (by show 1024 * (t.val / 2) + p.val = 1024 * ((t.val - 1) / 2) + p.val; omega) (by show j.val = 4096 * ((t.val - 1) % 2) + j.val; omega)
  · intro j
    exact adjacency_block m c t p j _ (hi j) rfl (by show 4096 + j.val = 4096 * (t.val % 2) + j.val; omega)

/-- The result array after the run is the specification of the arguments as launched. -/
theorem final (c : Dev nD) :
    (dats m 0 c).arrAt 4 cfg0.N
      = out (m ((c : Thread nD τ).loc main_arg0)) (m ((c : Thread nD τ).loc main_arg1))
          (m ((c : Thread nD τ).loc main_arg2)) (m ((c : Thread nD τ).loc main_arg3)) := by
  rw [(dats m 0 c).arrAt_eq_of_cover 4 (result m c) (fun t hf => flushed_odd m c t ((flush0_4 t).mp hf)) covered]
  unfold result
  rw [V_main_arg0, V_main_arg1, V_main_arg2]

/-- The kernel's run, with its result named: the specification of the arguments, which end unchanged. -/
theorem run : θ_run defs (onTc (τ := τ) (main (F := Ideal))) ⟨m, fun _ => 0, ρ⟩ fun r => ∀ c : Dev nD,
      r.2.mem ((c : Thread nD τ).loc main_v0)
          = out (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.GraphConv.Sweep

end
-- ==== Proof.lean ====
/-
  A graph-convolution layer: `out = adj · (x · wᵀ + b)`, for 8192 nodes, 128 input features and 64 output features.

  The kernel computes the support matrix `x · wᵀ + b` once, at the first point of an 8 × 2 grid, and keeps it; for each
  panel of 1024 rows of the adjacency matrix it multiplies the panel's first 4096 columns by the first 4096 rows of
  the support matrix, keeps that partial product, and at the next point adds the product of the panel's last 4096
  columns with the last 4096 rows and stores the panel of the result. The reference forms the same two products whole.
  On the extended reals both results are, entry by entry, `Σ j, adj[r, j] · (Σ d, x[j, d] · w[c, d] + b[c])`: the kernel's
  is that sum taken as its first half plus its second half, and addition of extended reals is commutative and
  associative, so the two agree for all inputs, the infinities included; finiteness of the inputs is not used.

  The modules: HalfSums (a sum over 8192 indices is the sum of its halves), Spec (the result as one function of the four
  arrays, and its two-halves form), Reference (the reference's result is that function), Payloads (the kernel body's
  arithmetic read at an index), PanelValue (one stored entry is the function's), Stored (what each case of the body
  leaves in its buffers), Blocks (which part of each array a grid point is handed), Sweep (the induction over the grid
  points and the array the run leaves). The frames of the two kernel programs are the generated ones; the reference's
  frame is its generated run with the result dropped. The idealization rewrote nothing, so its conjunct is `True`.
-/
import proofs.«139567_g55353538511427_cont_9to1c4b_890_16_alg».proof.Defs
import proofs.«139567_g55353538511427_cont_9to1c4b_890_16_alg».proof.Proof.Gen.Kernel
import proofs.«139567_g55353538511427_cont_9to1c4b_890_16_alg».proof.Proof.Gen.Kernel.Frame
import proofs.«139567_g55353538511427_cont_9to1c4b_890_16_alg».proof.Proof.Gen.KernelIdeal
import proofs.«139567_g55353538511427_cont_9to1c4b_890_16_alg».proof.Proof.Gen.KernelIdeal.Frame
import proofs.«139567_g55353538511427_cont_9to1c4b_890_16_alg».proof.Proof.Gen.KernelIdeal.Value
import proofs.«139567_g55353538511427_cont_9to1c4b_890_16_alg».proof.Proof.Gen.ReferenceIdeal
import proofs.«139567_g55353538511427_cont_9to1c4b_890_16_alg».proof.Proof.Gen.ReferenceIdeal.Run
import proofs.«139567_g55353538511427_cont_9to1c4b_890_16_alg».proof.Proof.Gen.ReferenceIdeal.Read
import proofs.«139567_g55353538511427_cont_9to1c4b_890_16_alg».proof.Proof.Gen.Pre_finite_inputs
import proofs.«139567_g55353538511427_cont_9to1c4b_890_16_alg».proof.Proof.Reference
import proofs.«139567_g55353538511427_cont_9to1c4b_890_16_alg».proof.Proof.Sweep

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's run and the reference's run both end with the result
    array at the specification of those arguments. -/
theorem algebraic : Cert.algebraic_KernelIdeal_ReferenceIdeal := by
  intro m ρ m' ρ' _ hagree
  refine ⟨_, Cert.GraphConv.Sweep.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.GraphConv.Reference.stage_eq_out _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
